-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S64 : Shape := ⟨1, ![64]⟩
abbrev S16 : Shape := ⟨1, ![16]⟩
abbrev S2048x2048 : Shape := ⟨2, ![2048, 2048]⟩
abbrev S2048 : Shape := ⟨1, ![2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S64 : S_.BroadcastsInDim S64 (![] : Fin 0 → Fin S64.rank)
  reducesTo_S64_S_d0 : S64.ReducesTo [0] S_
  bcast_S_S16 : S_.BroadcastsInDim S16 (![] : Fin 0 → Fin S16.rank)
  reducesTo_S16_S_d0 : S16.ReducesTo [0] S_

variable [Facts]

def fn {F : FTy → Type} [FloatOps F] (main_arg0 : FVec F S16384x2048 .f32) (main_arg1 : FVec F S64 .f32) (main_arg2 : FVec F S16 .f32) (main_arg3 : IVec S2048x2048 32) (main_arg4 : IVec S2048 32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S16384x2048 : Shape := ⟨2, ![16384, 2048]⟩
abbrev S64 : Shape := ⟨1, ![64]⟩
abbrev S16 : Shape := ⟨1, ![16]⟩
abbrev S2048x2048 : Shape := ⟨2, ![2048, 2048]⟩
abbrev S2048 : Shape := ⟨1, ![2048]⟩
abbrev S_ : Shape := ⟨0, ![]⟩
abbrev S1 : Shape := ⟨1, ![1]⟩
abbrev S65 : Shape := ⟨1, ![65]⟩
abbrev S17 : Shape := ⟨1, ![17]⟩
abbrev S2048x2048x1 : Shape := ⟨3, ![2048, 2048, 1]⟩
abbrev S2048x1 : Shape := ⟨2, ![2048, 1]⟩
abbrev S1x2048 : Shape := ⟨2, ![1, 2048]⟩
abbrev S512x2048 : Shape := ⟨2, ![512, 2048]⟩

abbrev nBuf : Space → Nat
  | .hbm => 32
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S64, .f32⟩
  | .hbm, ⟨2, _⟩ => ⟨S16, .f32⟩
  | .hbm, ⟨3, _⟩ => ⟨S2048x2048, .i32⟩
  | .hbm, ⟨4, _⟩ => ⟨S2048, .i32⟩
  | .hbm, ⟨5, _⟩ => ⟨S_, .f32⟩
  | .hbm, ⟨6, _⟩ => ⟨S1, .f32⟩
  | .hbm, ⟨7, _⟩ => ⟨S65, .f32⟩
  | .hbm, ⟨8, _⟩ => ⟨S_, .f32⟩
  | .hbm, ⟨9, _⟩ => ⟨S1, .f32⟩
  | .hbm, ⟨10, _⟩ => ⟨S17, .f32⟩
  | .hbm, ⟨11, _⟩ => ⟨S_, .i32⟩
  | .hbm, ⟨12, _⟩ => ⟨S2048x2048, .i32⟩
  | .hbm, ⟨13, _⟩ => ⟨S2048x2048, .i1⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S2048x2048x1, .i32⟩
  | .hbm, ⟨19, _⟩ => ⟨S2048x2048, .f32⟩
  | .hbm, ⟨20, _⟩ => ⟨S2048x2048, .bf16⟩
  | .hbm, ⟨21, _⟩ => ⟨S_, .i32⟩
  | .hbm, ⟨22, _⟩ => ⟨S2048, .i32⟩
  | .hbm, ⟨23, _⟩ => ⟨S2048, .i1⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S2048, .i32⟩
  | .hbm, ⟨28, _⟩ => ⟨S2048x1, .i32⟩
  | .hbm, ⟨29, _⟩ => ⟨S2048, .f32⟩
  | .hbm, ⟨30, _⟩ => ⟨S1x2048, .f32⟩
  | .hbm, ⟨31, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1 : S_.BroadcastsInDim S1 (![] : Fin 0 → Fin S1.rank)
  concatenates_S1_S64_S65_d0 : Shape.Concatenates [S1, S64] S65 0
  concatenates_S1_S16_S17_d0 : Shape.Concatenates [S1, S16] S17 0
  bcast_S_S2048x2048 : S_.BroadcastsInDim S2048x2048 (![] : Fin 0 → Fin S2048x2048.rank)
  bcast_S2048x2048_S2048x2048x1_0_1 : S2048x2048.BroadcastsInDim S2048x2048x1 (![0, 1] : Fin 2 → Fin S2048x2048x1.rank)
  bitsLt_bf16_f32 : FTy.bits .bf16 < FTy.bits .f32
  bcast_S_S2048 : S_.BroadcastsInDim S2048 (![] : Fin 0 → Fin S2048.rank)
  bcast_S2048_S2048x1_0 : S2048.BroadcastsInDim S2048x1 (![0] : Fin 1 → Fin S2048x1.rank)
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  gather_S65_S2048x2048x1_S2048x2048_n_0_n_n_0_2_1_wf : GatherDims.WF S65 S2048x2048x1 S2048x2048 [] [0] [] [0] [] 2 ![1]
  gather_S17_S2048x1_S2048_n_0_n_n_0_1_1_wf : GatherDims.WF S17 S2048x1 S2048 [] [0] [] [0] [] 1 ![1]
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S16384x2048.size a
  hwx0_3 : ∀ i : grid0.Coords, EltTy.bits .f32 = 32 ∨ (Rect.block (s := S16384x2048) S512x2048.size (cc0_transform_3 i) (hinb0_3 i)).WholeWords (EltTy.packing .f32)

variable [Facts₀]

def gather_S65_S2048x2048x1_S2048x2048_n_0_n_n_0_2_1 : GatherDims S65 S2048x2048x1 S2048x2048 where
  offsetDims := []
  collapsedSliceDims := [0]
  operandBatchingDims := []
  startIndicesBatchingDims := []
  startIndexMap := [0]
  indexVectorDim := 2
  sliceSizes := ![1]
  wf := gather_S65_S2048x2048x1_S2048x2048_n_0_n_n_0_2_1_wf
def gather_S17_S2048x1_S2048_n_0_n_n_0_1_1 : GatherDims S17 S2048x1 S2048 where
  offsetDims := []
  collapsedSliceDims := [0]
  operandBatchingDims := []
  startIndicesBatchingDims := []
  startIndexMap := [0]
  indexVectorDim := 1
  sliceSizes := ![1]
  wf := gather_S17_S2048x1_S2048_n_0_n_n_0_1_1_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S64 : Shape := ⟨1, ![64]⟩
abbrev S16 : Shape := ⟨1, ![16]⟩
abbrev S2048x2048 : Shape := ⟨2, ![2048, 2048]⟩
abbrev S2048 : Shape := ⟨1, ![2048]⟩
abbrev S_ : Shape := ⟨0, ![]⟩
abbrev S1 : Shape := ⟨1, ![1]⟩
abbrev S65 : Shape := ⟨1, ![65]⟩
abbrev S17 : Shape := ⟨1, ![17]⟩
abbrev S2048x2048x1 : Shape := ⟨3, ![2048, 2048, 1]⟩
abbrev S2048x1 : Shape := ⟨2, ![2048, 1]⟩
abbrev S1x2048 : Shape := ⟨2, ![1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S64, .f32⟩
  | .hbm, ⟨2, _⟩ => ⟨S16, .f32⟩
  | .hbm, ⟨3, _⟩ => ⟨S2048x2048, .i32⟩
  | .hbm, ⟨4, _⟩ => ⟨S2048, .i32⟩
  | .hbm, ⟨5, _⟩ => ⟨S_, .f32⟩
  | .hbm, ⟨6, _⟩ => ⟨S1, .f32⟩
  | .hbm, ⟨7, _⟩ => ⟨S65, .f32⟩
  | .hbm, ⟨8, _⟩ => ⟨S_, .f32⟩
  | .hbm, ⟨9, _⟩ => ⟨S1, .f32⟩
  | .hbm, ⟨10, _⟩ => ⟨S17, .f32⟩
  | .hbm, ⟨11, _⟩ => ⟨S_, .i32⟩
  | .hbm, ⟨12, _⟩ => ⟨S2048x2048, .i32⟩
  | .hbm, ⟨13, _⟩ => ⟨S2048x2048, .i1⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S2048x2048x1, .i32⟩
  | .hbm, ⟨19, _⟩ => ⟨S2048x2048, .f32⟩
  | .hbm, ⟨20, _⟩ => ⟨S_, .i32⟩
  | .hbm, ⟨21, _⟩ => ⟨S2048, .i32⟩
  | .hbm, ⟨22, _⟩ => ⟨S2048, .i1⟩
  | .hbm, ⟨23, _⟩ => ⟨S_, .i32⟩
  | .hbm, ⟨24, _⟩ => ⟨S2048, .i32⟩
  | .hbm, ⟨25, _⟩ => ⟨S2048, .i32⟩
  | .hbm, ⟨26, _⟩ => ⟨S2048, .i32⟩
  | .hbm, ⟨27, _⟩ => ⟨S2048x1, .i32⟩
  | .hbm, ⟨28, _⟩ => ⟨S2048, .f32⟩
  | .hbm, ⟨29, _⟩ => ⟨S16384x2048, .f32⟩
  | .hbm, ⟨30, _⟩ => ⟨S1x2048, .f32⟩
  | .hbm, ⟨31, _⟩ => ⟨S16384x2048, .f32⟩
  | .hbm, ⟨32, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S_S1 : S_.BroadcastsInDim S1 (![] : Fin 0 → Fin S1.rank)
  concatenates_S1_S64_S65_d0 : Shape.Concatenates [S1, S64] S65 0
  concatenates_S1_S16_S17_d0 : Shape.Concatenates [S1, S16] S17 0
  bcast_S_S2048x2048 : S_.BroadcastsInDim S2048x2048 (![] : Fin 0 → Fin S2048x2048.rank)
  bcast_S2048x2048_S2048x2048x1_0_1 : S2048x2048.BroadcastsInDim S2048x2048x1 (![0, 1] : Fin 2 → Fin S2048x2048x1.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  gather_S65_S2048x2048x1_S2048x2048_n_0_n_n_0_2_1_wf : GatherDims.WF S65 S2048x2048x1 S2048x2048 [] [0] [] [0] [] 2 ![1]
  gather_S17_S2048x1_S2048_n_0_n_n_0_1_1_wf : GatherDims.WF S17 S2048x1 S2048 [] [0] [] [0] [] 1 ![1]
  dot_S16384x2048_S2048x2048_S16384x2048_1_0_0_1_n_n_wf : DotDims.WF S16384x2048 S2048x2048 S16384x2048 [1] [0] [0] [1] [] []

variable [Facts₀]

def gather_S65_S2048x2048x1_S2048x2048_n_0_n_n_0_2_1 : GatherDims S65 S2048x2048x1 S2048x2048 where
  offsetDims := []
  collapsedSliceDims := [0]
  operandBatchingDims := []
  startIndicesBatchingDims := []
  startIndexMap := [0]
  indexVectorDim := 2
  sliceSizes := ![1]
  wf := gather_S65_S2048x2048x1_S2048x2048_n_0_n_n_0_2_1_wf
def gather_S17_S2048x1_S2048_n_0_n_n_0_1_1 : GatherDims S17 S2048x1 S2048 where
  offsetDims := []
  collapsedSliceDims := [0]
  operandBatchingDims := []
  startIndicesBatchingDims := []
  startIndexMap := [0]
  indexVectorDim := 1
  sliceSizes := ![1]
  wf := gather_S17_S2048x1_S2048_n_0_n_n_0_1_1_wf
def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf

class Facts : Prop extends Facts₀ where

variable [Facts]
-- ==== Proof.TiedLinear.lean ====
/-
  The function both programs compute, stated once over plain arrays of extended reals.

  A batch of 16384 rows of 2048 entries is multiplied by a 2048 × 2048 weight table and a bias row is added to
  every row of the product: entry (r, c) of the result is

      Σ_k x[r, k] · w[k, c]  +  b[c].

  The weight table and the bias row are looked up from small parameter tables through integer patterns; that
  lookup is the same for both programs, so here the table and the row are simply arguments.
  Nothing below needs the entries to be finite: only the order of a finite sum is ever changed, and addition
  on the extended reals is commutative and associative.
-/
import Idealize.ShloMosaic.PureOps.Ideal
import Idealize.ShloMosaic.Lib.ValueIdx

noncomputable section

open scoped BigOperators

namespace Cert.TiedLinear

open Idealize.ShloMosaic Idealize.ShloMosaic.ValueIdx

/-- The batch of rows, and the result: 16384 rows of 2048 entries. -/
abbrev Rows : Shape := ⟨2, ![16384, 2048]⟩
/-- The weight table: 2048 input features by 2048 output features. -/
abbrev Table : Shape := ⟨2, ![2048, 2048]⟩
/-- The bias row: one entry per output feature. -/
abbrev Row : Shape := ⟨1, ![2048]⟩

/-- Rows times the weight table, plus the bias row on every row: entry (r, c) is
    Σ_k x[r, k] · w[k, c] + b[c]. -/
def linear (x : Rows.Idx → EReal) (w : Table.Idx → EReal) (b : Row.Idx → EReal) : Rows.Idx → EReal :=
  fun i => (∑ k : Fin 2048, x (ix2 (n0 := 16384) (i 0) k) * w (ix2 (n0 := 2048) k (i 1))) + b (ix1 (n := 2048) (i 1))

/-- The same entry, named by its row and its column. -/
theorem linear_apply (x : Rows.Idx → EReal) (w : Table.Idx → EReal) (b : Row.Idx → EReal) (r : Fin 16384) (c : Fin 2048) :
    linear x w b (ix2 r c) = (∑ k : Fin 2048, x (ix2 r k) * w (ix2 k c)) + b (ix1 c) := rfl

end Cert.TiedLinear

end
-- ==== Proof.ReferenceIsLinear.lean ====
/-
  The reference's result, read entry by entry, is `TiedLinear.linear` of the batch, of the weight table its
  first lookup produces and of the bias row its second lookup produces.

  The reference multiplies the whole batch by the table in one contraction over the 2048 input features and adds
  the bias row after broadcasting it over the 16384 rows; entry (r, c) of the contraction is the sum over k of
  x[r, k] · W[k, c], and the broadcast bias at (r, c) is the row's entry c.
-/
import proofs.«101225_j44856638440003_2_alg».proof.Proof.Gen.ReferenceIdeal.Read
import proofs.«101225_j44856638440003_2_alg».proof.Proof.TiedLinear

noncomputable section

open scoped BigOperators

namespace Cert.TiedLinear

open Idealize.ShloMosaic Idealize.ShloMosaic.ValueIdx
open Cert.ReferenceIdeal Cert.ReferenceIdeal.Read

/-- Entry by entry, the reference's result is rows times the looked-up table plus the looked-up bias row. -/
theorem reference_eq
    (x0 : (⟨S16384x2048, .f32⟩ : BufTy).Contents (Elt Ideal)) (x1 : (⟨S64, .f32⟩ : BufTy).Contents (Elt Ideal))
    (x2 : (⟨S16, .f32⟩ : BufTy).Contents (Elt Ideal)) (x3 : (⟨S2048x2048, .i32⟩ : BufTy).Contents (Elt Ideal))
    (x4 : (⟨S2048, .i32⟩ : BufTy).Contents (Elt Ideal)) :
    val_main_v21 (F := Ideal) x0 x1 x2 x3 x4
      = linear x0 (val_main_v10 (F := Ideal) x1 x3) (val_main_v17 (F := Ideal) x2 x4) := by
  funext i
  -- the operand indices of the contraction and of the two broadcasts, in coordinates
  have el : ∀ k : Fin 2048, lidx_main_v18 i k = ix2 (n0 := 16384) (i 0) k := fun k =>
    funext fun a => Fin.ext (by match a with | ⟨0, _⟩ => rfl | ⟨1, _⟩ => rfl)
  have er : ∀ k : Fin 2048, ridx_main_v18 i k = ix2 (n0 := 2048) k (i 1) := fun k =>
    funext fun a => Fin.ext (by match a with | ⟨0, _⟩ => rfl | ⟨1, _⟩ => rfl)
  have eb : idx_main_v19 (idx_main_v20 i) = ix1 (n := 2048) (i 1) :=
    funext fun a => Fin.ext (by match a with | ⟨0, _⟩ => rfl)
  rw [val_main_v21_apply, val_main_v18_apply, val_main_v20_apply, val_main_v19_apply, eb]
  simp only [el, er]
  rfl

end Cert.TiedLinear

end
-- ==== Proof.BodyAtEntry.lean ====
/-
  What the kernel's body stores for one block of 512 rows, read entry by entry.

  The body narrows the block of rows to bfloat16 (the identity on extended reals), multiplies it by the whole
  weight table into a zero accumulator, and adds the bias row broadcast over the block's 512 rows. Entry (p, q) of
  what it stores is therefore

      Σ_k x[p, k] · w[k, q]  +  b[0, q]

  over the block's own rows x, the table w and the bias held as a 1 × 2048 array b.
-/
import proofs.«101225_j44856638440003_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.TiedLinear

open Idealize.ShloMosaic Idealize.ShloMosaic.ValueIdx
open Cert.KernelIdeal Cert.KernelIdeal.Gen

/-- The contraction's left operand index at output (p, q) and feature k is (p, k). -/
theorem block_lhs (p : Fin 512) (q k : Fin 2048) :
    dot_S512x2048_S2048x2048_S512x2048_1_0_0_1_n_n.lhsIdx (ix2 p q)
        ((contrEquiv1 dot_S512x2048_S2048x2048_S512x2048_1_0_0_1_n_n 2048 rfl rfl).symm k)
      = ix2 (n0 := 512) p k := by
  have hk := contrEquiv1_symm_val dot_S512x2048_S2048x2048_S512x2048_1_0_0_1_n_n 2048 rfl rfl k
  refine funext fun a => Fin.ext ?_
  match a with
  | ⟨0, _⟩ =>
    show (dot_S512x2048_S2048x2048_S512x2048_1_0_0_1_n_n.lhsIdx _ _ 0).val = p.val
    unfold DotDims.lhsIdx
    rw [dif_neg (show ¬(0 : Fin S512x2048.rank) ∈ dot_S512x2048_S2048x2048_S512x2048_1_0_0_1_n_n.lhsBatch by decide),
      dif_pos (show (0 : Fin S512x2048.rank) ∈ dot_S512x2048_S2048x2048_S512x2048_1_0_0_1_n_n.lhsNonContracting by decide)]
    rfl
  | ⟨1, _⟩ =>
    exact (dot_S512x2048_S2048x2048_S512x2048_1_0_0_1_n_n.lhsIdx_val_of_single (cl := 1) rfl _ _).trans hk

/-- The contraction's right operand index at output (p, q) and feature k is (k, q). -/
theorem block_rhs (p : Fin 512) (q k : Fin 2048) :
    dot_S512x2048_S2048x2048_S512x2048_1_0_0_1_n_n.rhsIdx (ix2 p q)
        ((contrEquiv1 dot_S512x2048_S2048x2048_S512x2048_1_0_0_1_n_n 2048 rfl rfl).symm k)
      = ix2 (n0 := 2048) k q := by
  have hk := contrEquiv1_symm_val dot_S512x2048_S2048x2048_S512x2048_1_0_0_1_n_n 2048 rfl rfl k
  refine funext fun a => Fin.ext ?_
  match a with
  | ⟨0, _⟩ =>
    exact (dot_S512x2048_S2048x2048_S512x2048_1_0_0_1_n_n.rhsIdx_val_of_single (cr := 0) rfl _ _).trans hk
  | ⟨1, _⟩ =>
    show (dot_S512x2048_S2048x2048_S512x2048_1_0_0_1_n_n.rhsIdx _ _ 1).val = q.val
    unfold DotDims.rhsIdx
    rw [dif_neg (show ¬(1 : Fin S2048x2048.rank) ∈ dot_S512x2048_S2048x2048_S512x2048_1_0_0_1_n_n.rhsBatch by decide),
      dif_pos (show (1 : Fin S2048x2048.rank) ∈ dot_S512x2048_S2048x2048_S512x2048_1_0_0_1_n_n.rhsNonContracting by decide)]
    rfl

/-- The block's product into a zero accumulator, at (p, q): the sum over the 2048 input features. -/
theorem block_product (xb : FVec Ideal S512x2048 .bf16) (w : FVec Ideal S2048x2048 .bf16) (p : Fin 512) (q : Fin 2048) :
    matmul dot_S512x2048_S2048x2048_S512x2048_1_0_0_1_n_n none xb w (constant (F := Ideal) S512x2048 .f32 0x00000000#32) (ix2 p q)
      = ∑ k : Fin 2048, xb (ix2 p k) * w (ix2 k q) := by
  show FloatOps.matmul _ none xb w (constant (F := Ideal) S512x2048 .f32 0x00000000#32) (ix2 p q) = _
  rw [Ideal.matmul_constant_zero_apply,
    ← Equiv.sum_comp (contrEquiv1 dot_S512x2048_S2048x2048_S512x2048_1_0_0_1_n_n 2048 rfl rfl).symm]
  refine Finset.sum_congr rfl fun k _ => ?_
  rw [block_lhs, block_rhs]

/-- The bias row broadcast over the block's rows, at (p, q): the row's entry q. -/
theorem block_bias (b : FVec Ideal S1x2048 .f32) (p : Fin 512) (q : Fin 2048) :
    broadcastTo S512x2048 b broadcasts_S1x2048_S512x2048 (ix2 p q) = b (ix2 (n0 := 1) 0 q) :=
  broadcastTo_apply b broadcasts_S1x2048_S512x2048 (ix2 p q) (ix2 (n0 := 1) 0 q) (fun a => by
    match a with
    | ⟨0, _⟩ => show (0 : Nat) = if (1 : Nat) = 1 then 0 else _; rw [if_pos rfl]
    | ⟨1, _⟩ => show q.val = if (2048 : Nat) = 1 then 0 else q.val; rw [if_neg (by decide)])

/-- ENTRY (p, q) OF WHAT THE BODY STORES: the block's row p against the table's column q, plus the bias's entry q. -/
theorem body_apply (x0 : Vec Ideal S512x2048 .f32) (x1 : Vec Ideal S2048x2048 .bf16) (x2 : Vec Ideal S1x2048 .f32)
    (p : Fin 512) (q : Fin 2048) :
    k0_pay1 (F := Ideal) x0 x1 x2 (ix2 p q)
      = (∑ k : Fin 2048, x0 (ix2 p k) * x1 (ix2 k q)) + x2 (ix2 (n0 := 1) 0 q) := by
  unfold k0_pay1
  show matmul dot_S512x2048_S2048x2048_S512x2048_1_0_0_1_n_n none (truncf .bf16 x0 bitsLt_bf16_f32)
        (shapeCast S2048x2048 x1 shapeCasts_S2048x2048_S2048x2048) (constant (F := Ideal) S512x2048 .f32 0x00000000#32) (ix2 p q)
      + broadcastTo S512x2048 (shapeCast S1x2048 x2 shapeCasts_S1x2048_S1x2048) broadcasts_S1x2048_S512x2048 (ix2 p q) = _
  rw [shapeCast_self, shapeCast_self, block_product, block_bias]
  rfl

end Cert.TiedLinear

end
-- ==== Proof.BlocksToArray.lean ====
/-
  From blocks to the whole result array.

  The region runs over 32 grid points. Point t works on rows 512·t … 512·t + 511 of the batch: it is handed those
  rows, the WHOLE weight table and the WHOLE 1 × 2048 bias array (the same two at every point), and writes back
  rows 512·t … 512·t + 511 of the result. What it writes back is exactly those rows of ONE function of the arrays the
  region was launched on — `TiedLinear.linear` of the batch, the table and the bias row —, because entry (p, q) of
  the block depends only on row 512·t + p of the batch and column q of the table. The 32 blocks of 512 rows tile the
  16384 rows, so after the run the result array is that function everywhere.
-/
import proofs.«101225_j44856638440003_2_alg».proof.Proof.Gen.KernelIdeal.Value
import proofs.«101225_j44856638440003_2_alg».proof.Proof.TiedLinear
import proofs.«101225_j44856638440003_2_alg».proof.Proof.BodyAtEntry

noncomputable section

open scoped BigOperators

namespace Cert.TiedLinear

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The result array as ONE function of the arrays the region is launched on: the batch times the table it finds, plus
    the bias it finds (held 1 × 2048, read as a row). -/
def launched (c : Dev nD) : S16384x2048.Idx → EReal :=
  linear (V m c main_arg0) (V m c main_v11) (fun j => V m c main_v19 (ix2 (n0 := 1) 0 (j 0)))

/-- Where each window's block sits at grid point t, decided over the 32 points: the batch's and the result's blocks
    are block-row t; the table and the bias are always the one whole block. -/
theorem block_positions : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 31 :=
  (by decide +kernel : ∀ t : Fin grid0.N, _)

/-- Every block-row of the result is some point's. -/
theorem block_row_onto : ∀ n : Fin 32, ∃ t : Fin cfg0.N, win0_3.index t = ![n.val, 0] :=
  (by decide +kernel : ∀ n : Fin 32, ∃ t : Fin grid0.N, win0_3.index t = ![n.val, 0])

/-- One entry of a block against the whole arrays. If the block of rows x0 holds, in its row p, row r of the batch X,
    the table's block x1 holds, in its column q, column s of the table W, and the bias block x2 holds at (0, q) the
    bias B at (0, s), then entry (p, q) of what the body stores is entry (r, s) of `linear X W B` — for an index i of
    the result with row r and column s. -/
theorem block_entry (X : S16384x2048.Idx → EReal) (W : S2048x2048.Idx → EReal) (B : S1x2048.Idx → EReal)
    (x0 : S512x2048.Idx → EReal) (x1 : S2048x2048.Idx → EReal) (x2 : S1x2048.Idx → EReal)
    (i : S16384x2048.Idx) (p : Fin 512) (q : Fin 2048)
    (h0 : ∀ k : Fin 2048, x0 (ix2 p k) = X (ix2 (n0 := 16384) (i 0) k))
    (h1 : ∀ k : Fin 2048, x1 (ix2 k q) = W (ix2 (n0 := 2048) k (i 1)))
    (h2 : x2 (ix2 (n0 := 1) 0 q) = B (ix2 (n0 := 1) 0 (i 1))) :
    k0_pay1 (F := Ideal) x0 x1 x2 (ix2 p q) = linear X W (fun j => B (ix2 (n0 := 1) 0 (j 0))) i := by
  refine (body_apply x0 x1 x2 p q).trans ?_
  show _ = (∑ k : Fin 2048, X (ix2 (n0 := 16384) (i 0) k) * W (ix2 (n0 := 2048) k (i 1))) + B (ix2 (n0 := 1) 0 (i 1))
  rw [h2]
  exact congrArg (· + B (ix2 (n0 := 1) 0 (i 1))) (Finset.sum_congr rfl fun k _ => by rw [h0 k, h1 k])

/-- WHAT POINT t WRITES BACK is block t of `launched`. -/
theorem written_back (c : Dev nD) (t : Fin cfg0.N) :
    (dats m 0 c).flushed 3 t = ((cfg0.win 3).blk t).view.read (Elt Ideal) (launched m c) := by
  rw [Cert.KernelIdeal.Value.flushed3]
  unfold out0_3
  rw [View.canon_unit_zero zero_offsets]
  simp only [View.ld_unit_zero (S := S512x2048) zero_offsets, View.ld_unit_zero (S := S2048x2048) zero_offsets,
    View.ld_unit_zero (S := S1x2048) zero_offsets]
  obtain ⟨e00, e01, e10, e11, e20, e21, e31, -⟩ := block_positions t
  funext j
  obtain ⟨p, q, rfl⟩ : ∃ (p : Fin 512) (q : Fin 2048), j = ix2 p q := ⟨j 0, j 1, eq_ix2 j⟩
  show k0_pay1 (F := Ideal) (iblk m c 0 t) (iblk m c 1 t) (iblk m c 2 t) (ix2 p q)
    = linear (V m c main_arg0) (V m c main_v11) (fun j => V m c main_v19 (ix2 (n0 := 1) 0 (j 0)))
        (((cfg0.win 3).blk t).view.emb (ix2 p q))
  refine block_entry (V m c main_arg0) (V m c main_v11) (V m c main_v19) (iblk m c 0 t) (iblk m c 1 t) (iblk m c 2 t)
    (((cfg0.win 3).blk t).view.emb (ix2 p q)) p q (fun k => ?_) (fun k => ?_) ?_
  · -- the batch's block at (p, k) is the batch at (row of the result's entry, k)
    show V m c main_arg0 (((cfg0.win 0).blk t).view.emb (ix2 p k)) = _
    refine congrArg (V m c main_arg0) (funext fun a => Fin.ext ?_)
    match a with
    | ⟨0, _⟩ => show win0_0.index t (0 : Fin 2) * 512 + 1 * p.val = win0_3.index t (0 : Fin 2) * 512 + 1 * p.val; omega
    | ⟨1, _⟩ => show win0_0.index t (1 : Fin 2) * 2048 + 1 * k.val = k.val; omega
  · -- the table's one block at (k, q) is the table at (k, column of the result's entry)
    show V m c main_v11 (((cfg0.win 1).blk t).view.emb (ix2 k q)) = _
    refine congrArg (V m c main_v11) (funext fun a => Fin.ext ?_)
    match a with
    | ⟨0, _⟩ => show win0_1.index t (0 : Fin 2) * 2048 + 1 * k.val = k.val; omega
    | ⟨1, _⟩ => show win0_1.index t (1 : Fin 2) * 2048 + 1 * q.val = win0_3.index t (1 : Fin 2) * 2048 + 1 * q.val; omega
  · -- the bias's one block at (0, q) is the bias at (0, column of the result's entry)
    show V m c main_v19 (((cfg0.win 2).blk t).view.emb (ix2 (n0 := 1) 0 q)) = _
    refine congrArg (V m c main_v19) (funext fun a => Fin.ext ?_)
    match a with
    | ⟨0, _⟩ => show win0_2.index t (0 : Fin 2) * 1 + 1 * 0 = 0; omega
    | ⟨1, _⟩ => show win0_2.index t (1 : Fin 2) * 2048 + 1 * q.val = win0_3.index t (1 : Fin 2) * 2048 + 1 * q.val; omega

/-- An index of the result is in point t's block iff each coordinate is in the block's range on its axis. -/
theorem mem_block (t : Fin cfg0.N) (i : S16384x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v20).slice (win0_3.rect t)).set ↔ _
  rw [View.set_slice_whole, Rect.mem_set_unit]
  exact Iff.rfl

/-- The 32 blocks of 512 rows tile the 16384 rows: row r lies in the block of the point whose block-row is r / 512. -/
theorem tiled (i : S16384x2048.Idx) :
    ∃ t : Fin cfg0.N, (cfg0.win 3).flush t = true ∧ i ∈ ((cfg0.win 3).blk t).view.set := by
  have hi0 : (i 0).val < 16384 := (i 0).isLt
  have hi1 : (i 1).val < 2048 := (i 1).isLt
  obtain ⟨t, ht⟩ := block_row_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2048 ≤ (i 1).val ∧ (i 1).val < win0_3.index t (1 : Fin 2) * 2048 + 2048; omega

/-- THE RESULT ARRAY after the run is `launched`, everywhere. -/
theorem result_array (c : Dev nD) : (dats m 0 c).arrAt 3 cfg0.N = launched m c :=
  (dats m 0 c).arrAt_eq_of_cover 3 (launched m c) (fun t _ => written_back m c t) tiled

end Cert.TiedLinear

end
-- ==== Proof.Tables.lean ====
/-
  The two looked-up arrays the kernel's region is launched on, identified with the reference's.

  Before the region the kernel's host program prepends a zero to each parameter table, shifts negative pattern
  entries up by the table's length and gathers: the same operations, on the same literals, as the reference's. The
  weight table is then narrowed to bfloat16 (the identity on extended reals) and the bias row is re-laid as a
  1 × 2048 array, whose entry (0, q) is the row's entry q.
-/
import proofs.«101225_j44856638440003_2_alg».proof.Proof.Gen.KernelIdeal.Frame
import proofs.«101225_j44856638440003_2_alg».proof.Proof.Gen.ReferenceIdeal.Read
import proofs.«101225_j44856638440003_2_alg».proof.Proof.TiedLinear
import Idealize.ShloMosaic.Lib.StableHlo.Run
import Idealize.ShloMosaic.Lib.Pipeline.Value

noncomputable section

namespace Cert.TiedLinear

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-- The weight table the region finds is the reference's looked-up table of the same parameters and pattern. -/
theorem table_eq (c : Dev nD) :
    (V m c main_v11 : S2048x2048.Idx → EReal)
      = Cert.ReferenceIdeal.Read.val_main_v10 (F := Ideal) (m ((c : Thread nD τ).loc main_arg1)) (m ((c : Thread nD τ).loc main_arg3)) := by
  have e : (V m c main_v11 : S2048x2048.Idx → EReal)
      = truncf (F := Ideal) .bf16 (Cert.ReferenceIdeal.Read.val_main_v10 (F := Ideal) (m ((c : Thread nD τ).loc main_arg1)) (m ((c : Thread nD τ).loc main_arg3))) bitsLt_bf16_f32 := by
    dsimp only [Gen.V, Gen.hostOps0]
    after_results_simp
    rfl
  rw [e]
  -- narrowing to bfloat16 changes no extended real
  generalize Cert.ReferenceIdeal.Read.val_main_v10 (F := Ideal) (m ((c : Thread nD τ).loc main_arg1)) (m ((c : Thread nD τ).loc main_arg3)) = W
  rfl

/-- The 1 × 2048 bias array the region finds holds, at (0, q), entry q of the reference's looked-up bias row. -/
theorem bias_eq (c : Dev nD) (q : Fin 2048) :
    (V m c main_v19 : S1x2048.Idx → EReal) (ix2 (n0 := 1) 0 q)
      = Cert.ReferenceIdeal.Read.val_main_v17 (F := Ideal) (m ((c : Thread nD τ).loc main_arg2)) (m ((c : Thread nD τ).loc main_arg4)) (ix1 q) := by
  have e : (V m c main_v19 : S1x2048.Idx → EReal)
      = shapeCast S1x2048 (Cert.ReferenceIdeal.Read.val_main_v17 (F := Ideal) (m ((c : Thread nD τ).loc main_arg2)) (m ((c : Thread nD τ).loc main_arg4))) shapeCasts_S2048_S1x2048 := by
    dsimp only [Gen.V, Gen.hostOps0]
    after_results_simp
    rfl
  rw [e]
  refine shapeCast_apply _ _ _ _ ?_
  rw [Shape.rowMajor_val_one, Shape.rowMajor_val_two]
  show q.val = 0 * 2048 + q.val
  omega

end Cert.TiedLinear

end
-- ==== Proof.KernelIsLinear.lean ====
/-
  The kernel's run, re-posted: its result array is `TiedLinear.linear` of the batch, of the reference's looked-up
  weight table and of the reference's looked-up bias row — the same three the reference's own result is built from.
-/
import proofs.«101225_j44856638440003_2_alg».proof.Proof.BlocksToArray
import proofs.«101225_j44856638440003_2_alg».proof.Proof.Tables

noncomputable section

namespace Cert.TiedLinear

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The arrays the region is launched on, named by the program's arguments: the batch is as launched, the table and
    the bias are the reference's two lookups of the parameters through the patterns. -/
theorem launched_eq (c : Dev nD) :
    launched m c = linear (m ((c : Thread nD τ).loc main_arg0))
      (Cert.ReferenceIdeal.Read.val_main_v10 (F := Ideal) (m ((c : Thread nD τ).loc main_arg1)) (m ((c : Thread nD τ).loc main_arg3)))
      (Cert.ReferenceIdeal.Read.val_main_v17 (F := Ideal) (m ((c : Thread nD τ).loc main_arg2)) (m ((c : Thread nD τ).loc main_arg4))) := by
  unfold launched
  rw [V_main_arg0, table_eq]
  refine congrArg _ (funext fun j => ?_)
  exact (bias_eq m c (j 0)).trans (congrArg _ (eq_ix1 j).symm)

/-- Every weakly fair execution of the idealized kernel terminates with its result at that function of the
    arguments, and the arguments unchanged. -/
theorem kernel_run : θ_run defs (onTc (τ := τ) (main (F := Ideal))) ⟨m, fun _ => 0, ρ⟩ fun r => ∀ c : Dev nD,
      r.2.mem ((c : Thread nD τ).loc main_v20) = linear (m ((c : Thread nD τ).loc main_arg0))
        (Cert.ReferenceIdeal.Read.val_main_v10 (F := Ideal) (m ((c : Thread nD τ).loc main_arg1)) (m ((c : Thread nD τ).loc main_arg3)))
        (Cert.ReferenceIdeal.Read.val_main_v17 (F := Ideal) (m ((c : Thread nD τ).loc main_arg2)) (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((result_array m c).trans (launched_eq m c)), (h c).2⟩)
    (Cert.KernelIdeal.Value.run_blocks m ρ)

end Cert.TiedLinear

end
-- ==== Proof.lean ====
/-
  A tied-weight linear layer: out = x · W + b over a batch x of 16384 rows of 2048 features, where the 2048 × 2048
  weight table W and the bias row b are looked up from 64 and 16 shared parameters through integer patterns (a zero is
  prepended to each parameter list, so pattern value 0 means a structural zero).

  The kernel does the two lookups on the host exactly as the reference does, narrows the table to bfloat16, and
  multiplies in 32 blocks of 512 rows, each block against the whole table, adding the bias to each block; the
  reference multiplies the whole batch at once. On the extended reals narrowing is the identity and a block's entry
  (p, q) is the same sum over the 2048 features as the whole product's entry (512·t + p, q), so both results are
  `TiedLinear.linear` of the batch, the looked-up table and the looked-up bias row. No finiteness of the inputs is
  used: no sum is re-associated across a product, only read off.

  The three frames are the programs' runs with the result dropped; the kernel's idealization rewrote nothing, so
  there is nothing to preserve beyond the program's own text.
-/
import proofs.«101225_j44856638440003_2_alg».proof.Defs
import proofs.«101225_j44856638440003_2_alg».proof.Proof.Gen.Kernel
import proofs.«101225_j44856638440003_2_alg».proof.Proof.Gen.Kernel.Skeleton
import proofs.«101225_j44856638440003_2_alg».proof.Proof.Gen.Kernel.Launch
import proofs.«101225_j44856638440003_2_alg».proof.Proof.Gen.Kernel.Points
import proofs.«101225_j44856638440003_2_alg».proof.Proof.Gen.Kernel.Frame
import proofs.«101225_j44856638440003_2_alg».proof.Proof.Gen.KernelIdeal
import proofs.«101225_j44856638440003_2_alg».proof.Proof.Gen.KernelIdeal.Skeleton
import proofs.«101225_j44856638440003_2_alg».proof.Proof.Gen.KernelIdeal.Launch
import proofs.«101225_j44856638440003_2_alg».proof.Proof.Gen.KernelIdeal.Points
import proofs.«101225_j44856638440003_2_alg».proof.Proof.Gen.KernelIdeal.Frame
import proofs.«101225_j44856638440003_2_alg».proof.Proof.Gen.ReferenceIdeal
import proofs.«101225_j44856638440003_2_alg».proof.Proof.Gen.Pre_finite_inputs
import proofs.«101225_j44856638440003_2_alg».proof.Proof.Gen.KernelIdeal.Value
import proofs.«101225_j44856638440003_2_alg».proof.Proof.Gen.ReferenceIdeal.Run
import proofs.«101225_j44856638440003_2_alg».proof.Proof.Gen.ReferenceIdeal.Read
import proofs.«101225_j44856638440003_2_alg».proof.Proof.ReferenceIsLinear
import proofs.«101225_j44856638440003_2_alg».proof.Proof.KernelIsLinear
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments both programs end with the result array at
    `TiedLinear.linear` of the batch, the looked-up table and the looked-up bias row. -/
theorem algebraic : Cert.algebraic_KernelIdeal_ReferenceIdeal := by
  intro m ρ m' ρ' _ hagree
  refine ⟨_, Cert.TiedLinear.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.TiedLinear.reference_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
